-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048x64 : Shape := ⟨2, ![2048, 64]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S4x4096x2048 .f32) (main_arg1 : IVec S2048x2048 32) (main_arg2 : FVec F S2048x64 .f32) (main_arg3 : FVec F S2048x64 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x64 .f32 := Host.absf main_arg2
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S2048x64 .f32 := Host.absf main_arg3
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  main_v13
-- ==== Kernel.lean ====
abbrev S4x4096x2048 : Shape := ⟨3, ![4, 4096, 2048]⟩
abbrev S2048x2048 : Shape := ⟨2, ![2048, 2048]⟩
abbrev S2048x64 : Shape := ⟨2, ![2048, 64]⟩
abbrev S16384x2048 : Shape := ⟨2, ![16384, 2048]⟩
abbrev S2048x64x32 : Shape := ⟨3, ![2048, 64, 32]⟩
abbrev S2048x64x1 : Shape := ⟨3, ![2048, 64, 1]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .i32⟩
  | .hbm, ⟨2, _⟩ => ⟨S2048x64, .f32⟩
  | .hbm, ⟨3, _⟩ => ⟨S2048x64, .f32⟩
  | .hbm, ⟨4, _⟩ => ⟨S16384x2048, .f32⟩
  | .hbm, ⟨5, _⟩ => ⟨S2048x2048, .f32⟩
  | .hbm, ⟨6, _⟩ => ⟨S2048x64x32, .f32⟩
  | .hbm, ⟨7, _⟩ => ⟨S2048x64x1, .f32⟩
  | .hbm, ⟨8, _⟩ => ⟨S2048x64x32, .f32⟩
  | .hbm, ⟨9, _⟩ => ⟨S2048x64x32, .f32⟩
  | .hbm, ⟨10, _⟩ => ⟨S2048x64x1, .f32⟩
  | .hbm, ⟨11, _⟩ => ⟨S2048x64x32, .f32⟩
  | .hbm, ⟨12, _⟩ => ⟨S2048x64x32, .f32⟩
  | .hbm, ⟨13, _⟩ => ⟨S2048x2048, .f32⟩
  | .hbm, ⟨14, _⟩ => ⟨S2048x2048, .f32⟩
  | .hbm, ⟨15, _⟩ => ⟨S2048x2048, .bf16⟩
  | .hbm, ⟨16, _⟩ => ⟨S16384x2048, .f32⟩
  | .hbm, ⟨17, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x2048_S16384x2048 : S4x4096x2048.ShapeCasts S16384x2048
  shapeCasts_S2048x2048_S2048x64x32 : S2048x2048.ShapeCasts S2048x64x32
  bcast_S2048x64_S2048x64x1_0_1 : S2048x64.BroadcastsInDim S2048x64x1 (![0, 1] : Fin 2 → Fin S2048x64x1.rank)
  bcast_S2048x64x1_S2048x64x32_0_1_2 : S2048x64x1.BroadcastsInDim S2048x64x32 (![0, 1, 2] : Fin 3 → Fin S2048x64x32.rank)
  shapeCasts_S2048x64x32_S2048x2048 : S2048x64x32.ShapeCasts S2048x2048
  transposes_S2048x2048_S2048x2048_1_0 : S2048x2048.Transposes [1, 0] S2048x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S16384x2048_S4x4096x2048 : S16384x2048.ShapeCasts S4x4096x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048x64 : Shape := ⟨2, ![2048, 64]⟩
abbrev S_ : Shape := ⟨0, ![]⟩
abbrev S4x4096 : Shape := ⟨2, ![4, 4096]⟩
abbrev S4x4096x1 : Shape := ⟨3, ![4, 4096, 1]⟩
abbrev S2048x64x32 : Shape := ⟨3, ![2048, 64, 32]⟩
abbrev S2048x64x1 : Shape := ⟨3, ![2048, 64, 1]⟩

abbrev nBuf : Space → Nat
  | .hbm => 63
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .i32⟩
  | .hbm, ⟨2, _⟩ => ⟨S2048x64, .f32⟩
  | .hbm, ⟨3, _⟩ => ⟨S2048x64, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4x4096x2048, .f32⟩
  | .hbm, ⟨45, _⟩ => ⟨S4x4096x2048, .f32⟩
  | .hbm, ⟨46, _⟩ => ⟨S_, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S2048x2048, .f32⟩
  | .hbm, ⟨54, _⟩ => ⟨S2048x64x32, .f32⟩
  | .hbm, ⟨55, _⟩ => ⟨S2048x64x1, .f32⟩
  | .hbm, ⟨56, _⟩ => ⟨S2048x64x32, .f32⟩
  | .hbm, ⟨57, _⟩ => ⟨S2048x64x32, .f32⟩
  | .hbm, ⟨58, _⟩ => ⟨S2048x64x1, .f32⟩
  | .hbm, ⟨59, _⟩ => ⟨S2048x64x32, .f32⟩
  | .hbm, ⟨60, _⟩ => ⟨S2048x64x32, .f32⟩
  | .hbm, ⟨61, _⟩ => ⟨S2048x2048, .f32⟩
  | .hbm, ⟨62, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_cst_7 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_8 : Ref sig .tc := ⟨.hbm, 41, rfl⟩
abbrev main_cst_9 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S_S4x4096x2048 : S_.BroadcastsInDim S4x4096x2048 (![] : Fin 0 → Fin S4x4096x2048.rank)
  shapeCasts_S2048x2048_S2048x64x32 : S2048x2048.ShapeCasts S2048x64x32
  bcast_S2048x64_S2048x64x1_0_1 : S2048x64.BroadcastsInDim S2048x64x1 (![0, 1] : Fin 2 → Fin S2048x64x1.rank)
  bcast_S2048x64x1_S2048x64x32_0_1_2 : S2048x64x1.BroadcastsInDim S2048x64x32 (![0, 1, 2] : Fin 3 → Fin S2048x64x32.rank)
  shapeCasts_S2048x64x32_S2048x2048 : S2048x64x32.ShapeCasts S2048x2048
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.LibRowMax.lean ====
/-
  The maximum along the lanes of a row, read at an index, at the exact values.

  A lane maximum of an [a, b] array started from the word of minus infinity is, at row p, the fold of `max` from that word's value
  over the row's b entries; the host's one-operand reduce with a maximum body over the same axis is the same fold from
  its initial value. Both forms are stated over `Fin b` with the entries named by their coordinates, so a row-wise
  normalization on a block of rows and on the whole array meet in one expression.
-/
import Idealize.ShloMosaic.Lib.ValueIdx
import Idealize.ShloMosaic.PureOps.Ideal.Laws
import Idealize.ShloMosaic.PureOps.Reduce

noncomputable section

namespace Cert.LibRowMax

open Idealize.ShloMosaic Idealize.ShloMosaic.ValueIdx

/-- The inserted index of a lane reduction of an [a, b] array at row p and lane k is (p, k). -/
theorem lift_row {a b : ℕ} (h : (⟨2, ![a, b]⟩ : Shape).Reduces [1] ⟨1, ![a]⟩) (p : Fin a) (k : Fin b) :
    h.lift (ix1 p) k = ix2 p k :=
  funext fun c => by
    match c with
    | ⟨0, _⟩ => exact Fin.ext rfl
    | ⟨1, _⟩ => exact Fin.ext rfl

/-- The lane maximum of an `[a, b]` array started from the word of minus infinity, at row `p`: the fold of `max`
    over the row's entries from that word's value. -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src 0xFF800000#32 h hφ hacc (ix1 p)).trans
    (congrArg (Finset.fold max (Ideal.ofBits .f32 0xFF800000#32) · Finset.univ) (funext fun k => congrArg src (lift_row h p k)))

/-- The host's reduce with a maximum body over the lanes of an `[a, b]` array, at row `p`: the fold of `max`
    over the row's entries from the initial value. -/
theorem hostMax_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) :=
  (Host.reduce_eq_fold_single (FloatOps.maximumf (F := Ideal) (φ := .f32)) x init h' h hu (ix1 p)).trans
    (congrArg (Finset.fold max (init (Shape.Idx.first hu)) · Finset.univ) (funext fun k => congrArg x (lift_row h p k)))

end Cert.LibRowMax

end
-- ==== Proof.LibRowFold.lean ====
/-
  The minimum along the lanes of a row, and the host's reductions over the last axis of a rank-3 array, read at an index
  at the exact values.

  A lane minimum of an [a, b] array started from the word of plus infinity is, at row p, the fold of `min` from that word's
  value over the row's b entries. The host's one-operand reduce with a minimum or a maximum body over the last axis of an
  [a, b, c] array is, at (p, q), the same fold from its initial value over the c entries x[p, q, ·]. All forms are stated
  over `Fin` of the reduced extent with the entries named by their coordinates, so that a row-wise computation on a
  block of rows and on the whole array meet in one expression.
-/
import Idealize.ShloMosaic.Lib.ValueIdx
import Idealize.ShloMosaic.PureOps.Ideal.Laws
import Idealize.ShloMosaic.PureOps.Reduce

noncomputable section

namespace Cert.LibRowFold

open Idealize.ShloMosaic Idealize.ShloMosaic.ValueIdx

/-- The inserted index of a lane reduction of an [a, b] array at row p and lane k is (p, k). -/
theorem lift_row {a b : ℕ} (h : (⟨2, ![a, b]⟩ : Shape).Reduces [1] ⟨1, ![a]⟩) (p : Fin a) (k : Fin b) :
    h.lift (ix1 p) k = ix2 p k :=
  funext fun c => by
    match c with
    | ⟨0, _⟩ => exact Fin.ext rfl
    | ⟨1, _⟩ => exact Fin.ext rfl

/-- The inserted index of a last-axis reduction of an [a, b, c] array at (p, q) and coordinate k is (p, q, k). -/
theorem lift_last {a b c : ℕ} (h : (⟨3, ![a, b, c]⟩ : Shape).Reduces [2] ⟨2, ![a, b]⟩) (p : Fin a) (q : Fin b) (k : Fin c) :
    h.lift (ix2 p q) k = ix3 p q k :=
  funext fun d => by
    match d with
    | ⟨0, _⟩ => exact Fin.ext rfl
    | ⟨1, _⟩ => exact Fin.ext rfl
    | ⟨2, _⟩ => exact Fin.ext rfl

/-- The lane minimum of an `[a, b]` array started from the word of plus infinity, at row `p`: the fold of `min`
    over the row's entries from that word's value. -/
theorem laneMin_apply {a b : ℕ} (src : FVec Ideal ⟨2, ![a, b]⟩ .f32)
    (h : (⟨2, ![a, b]⟩ : Shape).Reduces [1] ⟨1, ![a]⟩) (hφ : FKind.Formats .f32)
    (hacc : (0x7F800000#32 : BitVec 32) = 0x7F800000#32) (p : Fin a) :
    multiReduction .minimumf [1] ⟨1, ![a]⟩ src 0x7F800000#32 h hφ hacc (ix1 p)
      = (Finset.univ : Finset (Fin b)).fold min (Ideal.ofBits .f32 0x7F800000#32) (fun k => src (ix2 p k)) :=
  ((multiReduction_minimumf_eq_fold src 0x7F800000#32 h hφ hacc (ix1 p)).trans
      (h.fold_filter_drop_single _ _ src (ix1 p))).trans
    (congrArg (Finset.fold min (Ideal.ofBits .f32 0x7F800000#32) · Finset.univ) (funext fun k => congrArg src (lift_row h p k)))

/-- The host's reduce with a minimum body over the last axis of an `[a, b, c]` array, at `(p, q)`: the fold of `min`
    over the entries `x[p, q, ·]` from the initial value. -/
theorem hostMin3_apply {a b c : ℕ} {u : Shape} (x : (⟨3, ![a, b, c]⟩ : Shape).Idx → EReal) (init : u.Idx → EReal)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.minimumf (F := Ideal) (φ := .f32)) x init h' hu (ix2 p q)
      = (Finset.univ : Finset (Fin c)).fold min (init (Shape.Idx.first hu)) (fun k => x (ix3 p q k)) :=
  (Host.reduce_eq_fold_single (FloatOps.minimumf (F := Ideal) (φ := .f32)) x init h' h hu (ix2 p q)).trans
    (congrArg (Finset.fold min (init (Shape.Idx.first hu)) · Finset.univ) (funext fun k => congrArg x (lift_last h p q k)))

/-- The host's reduce with a maximum body over the last axis of an `[a, b, c]` array, at `(p, q)`: the fold of `max`
    over the entries `x[p, q, ·]` from the initial value. -/
theorem hostMax3_apply {a b c : ℕ} {u : Shape} (x : (⟨3, ![a, b, c]⟩ : Shape).Idx → EReal) (init : u.Idx → EReal)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) :=
  (Host.reduce_eq_fold_single (FloatOps.maximumf (F := Ideal) (φ := .f32)) x init h' h hu (ix2 p q)).trans
    (congrArg (Finset.fold max (init (Shape.Idx.first hu)) · Finset.univ) (funext fun k => congrArg x (lift_last h p q k)))

end Cert.LibRowFold

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.Spec.lean ====
/-
  Per-token asymmetric 8-bit fake quantization followed by a product with a weight matrix, as one function of the
  argument arrays at the exact values.

  For a row r of 2048 entries: lo = min(min r, 0), hi = max(max r, 0), the step s = max((hi - lo) / 255, ε) with
  ε = 2⁻²³, the zero point z = clip(-128 - round(lo / s)) and the fake-quantized entry
  fq r k = (clip(round(r k / s) + z) - z) · s, clip being the clamp to [-128, 127] and round the rounding to nearest
  with ties to even. One program divides by the step; the other multiplies by its reciprocal 1 / s. The step is at
  least ε > 0, so it is not zero, and on the extended reals a quotient by a nonzero y is the product with y⁻¹
  while 1 / y is 1 · y⁻¹ = y⁻¹: the two forms are one function, with no finiteness needed.

  The result at (b, t, o) is Σ_k fq (x[b, t, ·]) k · W[o, k].
-/
import Idealize.ShloMosaic.Lib.ValueIdx
import Idealize.ShloMosaic.PureOps.Ideal.Laws

noncomputable section

namespace Cert.QuantSpec

open Idealize.ShloMosaic Idealize.ShloMosaic.ValueIdx
open scoped BigOperators

/-- Rounding to nearest, ties to even, on the extended reals (the infinities fixed). -/
def rnd (x : EReal) : EReal := Ideal.liftRound Ideal.roundHalfEven x

/-- The clamp to [-128, 127]: first from below, then from above. -/
def clip (x : EReal) : EReal :=
  min (Ideal.ofBits .f32 0x42FE0000#32) (max (Ideal.ofBits .f32 0xC3000000#32) x)

/-- The lower end of a row's range: the least entry, or zero if that is smaller. -/
def lo (r : Fin 2048 → EReal) : EReal :=
  min ((Finset.univ : Finset (Fin 2048)).fold min (Ideal.ofBits .f32 0x7F800000#32) r) (Ideal.ofBits .f32 0x00000000#32)

/-- The upper end of a row's range: the greatest entry, or zero if that is larger. -/
def hi (r : Fin 2048 → EReal) : EReal :=
  max ((Finset.univ : Finset (Fin 2048)).fold max (Ideal.ofBits .f32 0xFF800000#32) r) (Ideal.ofBits .f32 0x00000000#32)

/-- The quantization step of a row: its range over 255, but at least ε. -/
def step (r : Fin 2048 → EReal) : EReal :=
  max (Ideal.div (hi r - lo r) (Ideal.ofBits .f32 0x437F0000#32)) (Ideal.ofBits .f32 0x34000000#32)

/-- The zero point of a row, by division by the step. -/
def zp (r : Fin 2048 → EReal) : EReal :=
  clip (Ideal.ofBits .f32 0xC3000000#32 - rnd (Ideal.div (lo r) (step r)))

/-- The fake-quantized entry k of a row, by division by the step. -/
def fq (r : Fin 2048 → EReal) (k : Fin 2048) : EReal :=
  (clip (rnd (Ideal.div (r k) (step r)) + zp r) - zp r) * step r

/-- The reciprocal of a row's step, as the quotient 1 / s. -/
def inv (r : Fin 2048 → EReal) : EReal := Ideal.div (Ideal.ofBits .f32 0x3F800000#32) (step r)

/-- The zero point of a row, by multiplication with the reciprocal of the step. -/
def zp' (r : Fin 2048 → EReal) : EReal :=
  clip (Ideal.ofBits .f32 0xC3000000#32 - rnd (lo r * inv r))

/-- The fake-quantized entry k of a row, by multiplication with the reciprocal of the step. -/
def fq' (r : Fin 2048 → EReal) (k : Fin 2048) : EReal :=
  (clip (rnd (r k * inv r) + zp' r) - zp' r) * step r

/-- The word of 1.0 is the real 1. -/
theorem one_word : Ideal.ofBits .f32 0x3F800000#32 = 1 := by
  simp [Ideal.ofBits, Ideal.ieee, -EReal.coe_mul]
  norm_num

/-- The word of ε = 2⁻²³ is a positive real. -/
theorem eps_pos : (0 : EReal) < Ideal.ofBits .f32 0x34000000#32 := by
  simp [Ideal.ofBits, Ideal.ieee, -EReal.coe_mul]

/-- A row's step is at least ε, hence not zero. -/
theorem step_ne_zero (r : Fin 2048 → EReal) : step r ≠ 0 :=
  ne_of_gt (lt_of_lt_of_le eps_pos (le_max_right _ _))

/-- The product with the reciprocal 1 / s is the quotient by s, for s ≠ 0. -/
theorem mul_inv_eq_div (r : Fin 2048 → EReal) (a : EReal) : a * inv r = Ideal.div a (step r) := by
  unfold inv Ideal.div
  rw [if_neg (step_ne_zero r), if_neg (step_ne_zero r), one_word, one_mul]

theorem zp'_eq (r : Fin 2048 → EReal) : zp' r = zp r := by
  unfold zp' zp; rw [mul_inv_eq_div]

theorem fq'_eq (r : Fin 2048 → EReal) (k : Fin 2048) : fq' r k = fq r k := by
  unfold fq' fq; rw [mul_inv_eq_div, zp'_eq]

/-- The result at (b, t, o): the row x[b, t, ·] fake-quantized, times row o of the weights. -/
def Gat (x : (⟨3, ![4, 4096, 2048]⟩ : Shape).Idx → EReal) (W : (⟨2, ![2048, 2048]⟩ : Shape).Idx → EReal)
    (b : Fin 4) (t : Fin 4096) (o : Fin 2048) : EReal :=
  ∑ k : Fin 2048, fq (fun k' => x (ix3 b t k')) k * W (ix2 o k)

/-- The whole result array. -/
def G (x : (⟨3, ![4, 4096, 2048]⟩ : Shape).Idx → EReal) (W : (⟨2, ![2048, 2048]⟩ : Shape).Idx → EReal) :
    (⟨3, ![4, 4096, 2048]⟩ : Shape).Idx → EReal :=
  fun i => Gat x W (i 0) (i 1) (i 2)

/-- The product on the 16384 × 2048 layout, in the reciprocal form, of a row-major matrix of tokens and a weight matrix
    given input-major: entry (m, o) is Σ_k fq' (x[m, ·]) k · Wt[k, o]. -/
def Hat (x : (⟨2, ![16384, 2048]⟩ : Shape).Idx → EReal) (Wt : (⟨2, ![2048, 2048]⟩ : Shape).Idx → EReal)
    (m : Fin 16384) (o : Fin 2048) : EReal :=
  ∑ k : Fin 2048, fq' (fun k' => x (ix2 m k')) k * Wt (ix2 k o)

def H (x : (⟨2, ![16384, 2048]⟩ : Shape).Idx → EReal) (Wt : (⟨2, ![2048, 2048]⟩ : Shape).Idx → EReal) :
    (⟨2, ![16384, 2048]⟩ : Shape).Idx → EReal :=
  fun j => Hat x Wt (j 0) (j 1)

end Cert.QuantSpec

end
-- ==== Proof.Pay.lean ====
/-
  The body's arithmetic on one block of 512 tokens, read at an entry at the exact values.

  The body takes the block's row minima and maxima, forms each row's step, the reciprocal of the step and the zero point as
  512 × 1 columns, fake-quantizes the block lane by lane with those columns repeated over the lanes, and multiplies the
  512 × 2048 result with the 2048 × 2048 weight block into a zero accumulator. Column by column and then entry by entry
  this is the reciprocal form of the row-wise specification: entry (p, o) is Σ_k fq' (block row p) k · weights[k, o].
-/
import proofs.«144166_j91302414778446_2_alg».proof.Proof.Gen.KernelIdeal.Skeleton
import proofs.«144166_j91302414778446_2_alg».proof.Proof.LibKeepdims
import proofs.«144166_j91302414778446_2_alg».proof.Proof.LibRowMax
import proofs.«144166_j91302414778446_2_alg».proof.Proof.LibRowFold
import proofs.«144166_j91302414778446_2_alg».proof.Proof.LibMatmulRead
import proofs.«144166_j91302414778446_2_alg».proof.Proof.Spec
import Idealize.ShloMosaic.Lib.Pipeline.Value

noncomputable section

namespace Cert.KernelIdeal.PayValue

open Cert.KernelIdeal Cert.KernelIdeal.Gen Idealize.ShloMosaic Idealize.ShloMosaic.ValueIdx Cert.QuantSpec
open scoped BigOperators

/-- The column of the rows' lower ends. -/
def cLo (v : FVec Ideal S512x2048 .f32) : FVec Ideal S512x1 .f32 :=
  minimumf (shapeCast S512x1 (multiReduction .minimumf [1] S512 v 0x7F800000#32 reduces_S512x2048_S512 (.inl rfl) rfl) shapeCasts_S512_S512x1)
    (broadcast S512x1 (Scalar.ofBits .f32 0x00000000#32))

/-- The column of the rows' upper ends. -/
def cHi (v : FVec Ideal S512x2048 .f32) : FVec Ideal S512x1 .f32 :=
  maximumf (shapeCast S512x1 (multiReduction .maximumf [1] S512 v 0xFF800000#32 reduces_S512x2048_S512 (.inl rfl) rfl) shapeCasts_S512_S512x1)
    (broadcast S512x1 (Scalar.ofBits .f32 0x00000000#32))

/-- The column of the rows' steps. -/
def cStep (v : FVec Ideal S512x2048 .f32) : FVec Ideal S512x1 .f32 :=
  maximumf (divf (subf (cHi v) (cLo v)) (broadcast S512x1 (Scalar.ofBits .f32 0x437F0000#32)))
    (broadcast S512x1 (Scalar.ofBits .f32 0x34000000#32))

/-- The column of the reciprocals of the steps. -/
def cInv (v : FVec Ideal S512x2048 .f32) : FVec Ideal S512x1 .f32 :=
  divf (broadcast S512x1 (Scalar.ofBits .f32 0x3F800000#32)) (cStep v)

/-- The column of the rows' zero points. -/
def cZp (v : FVec Ideal S512x2048 .f32) : FVec Ideal S512x1 .f32 :=
  minimumf (broadcast S512x1 (Scalar.ofBits .f32 0x42FE0000#32))
    (maximumf (broadcast S512x1 (Scalar.ofBits .f32 0xC3000000#32))
      (subf (broadcast S512x1 (Scalar.ofBits .f32 0xC3000000#32)) (roundeven (mulf (cLo v) (cInv v)))))

/-- The fake-quantized block. -/
def xdq (v : FVec Ideal S512x2048 .f32) : FVec Ideal S512x2048 .f32 :=
  mulf
    (subf
      (minimumf (broadcast S512x2048 (Scalar.ofBits .f32 0x42FE0000#32))
        (maximumf (broadcast S512x2048 (Scalar.ofBits .f32 0xC3000000#32))
          (addf (roundeven (mulf v (broadcastTo S512x2048 (cInv v) broadcasts_S512x1_S512x2048)))
            (broadcastTo S512x2048 (cZp v) broadcasts_S512x1_S512x2048))))
      (broadcastTo S512x2048 (cZp v) broadcasts_S512x1_S512x2048))
    (broadcastTo S512x2048 (cStep v) broadcasts_S512x1_S512x2048)

/-- Rounding to nearest, ties to even, read at an index. -/
theorem roundeven_apply {s : Shape} (a : FVec Ideal s .f32) (i : s.Idx) :
    roundeven a i = Ideal.liftRound Ideal.roundHalfEven (a i) := rfl

/-- The body's result is the product of the fake-quantized block with the weight block into a zero accumulator. -/
theorem pay_eq (v0 : FVec Ideal S512x2048 .f32) (v39 : FVec Ideal S2048x2048 .bf16) :
    k0_pay1 (F := Ideal) v0 v39
      = matmul dot_S512x2048_S2048x2048_S512x2048_1_0_0_1_n_n none
          (truncf .bf16 (xdq (shapeCast S512x2048 v0 shapeCasts_S512x2048_S512x2048)) bitsLt_bf16_f32)
          (shapeCast S2048x2048 v39 shapeCasts_S2048x2048_S2048x2048 : FVec Ideal S2048x2048 .bf16)
          (constant S512x2048 .f32 0x00000000#32) := rfl

theorem cLo_apply (v : FVec Ideal S512x2048 .f32) (p : Fin 512) :
    cLo v (ix2 p (0 : Fin 1)) = lo (fun k => v (ix2 p k)) := by
  unfold cLo
  rw [minimumf_apply, LibKeepdims.shapeCast_a_a1_apply, LibRowFold.laneMin_apply]
  rfl

theorem cHi_apply (v : FVec Ideal S512x2048 .f32) (p : Fin 512) :
    cHi v (ix2 p (0 : Fin 1)) = hi (fun k => v (ix2 p k)) := by
  unfold cHi
  rw [maximumf_apply, LibKeepdims.shapeCast_a_a1_apply, LibRowMax.laneMax_apply]
  rfl

theorem cStep_apply (v : FVec Ideal S512x2048 .f32) (p : Fin 512) :
    cStep v (ix2 p (0 : Fin 1)) = step (fun k => v (ix2 p k)) := by
  unfold cStep
  rw [maximumf_apply, divf_apply, subf_apply, cHi_apply, cLo_apply]
  rfl

theorem cInv_apply (v : FVec Ideal S512x2048 .f32) (p : Fin 512) :
    cInv v (ix2 p (0 : Fin 1)) = inv (fun k => v (ix2 p k)) := by
  unfold cInv
  rw [divf_apply, cStep_apply]
  rfl

theorem cZp_apply (v : FVec Ideal S512x2048 .f32) (p : Fin 512) :
    cZp v (ix2 p (0 : Fin 1)) = zp' (fun k => v (ix2 p k)) := by
  unfold cZp
  rw [minimumf_apply, maximumf_apply, subf_apply, roundeven_apply, mulf_apply, cLo_apply, cInv_apply]
  rfl

theorem xdq_apply (v : FVec Ideal S512x2048 .f32) (p : Fin 512) (k : Fin 2048) :
    xdq v (ix2 p k) = fq' (fun k' => v (ix2 p k')) k := by
  unfold xdq
  rw [mulf_apply, subf_apply, minimumf_apply, maximumf_apply, addf_apply, roundeven_apply, mulf_apply,
    LibKeepdims.broadcastTo_a1_ab_apply (cInv v), LibKeepdims.broadcastTo_a1_ab_apply (cZp v),
    LibKeepdims.broadcastTo_a1_ab_apply (cStep v), cInv_apply, cZp_apply, cStep_apply]
  rfl

/-- Entry (p, o) of the body's result: the block's row p fake-quantized, times column o of the weight block. -/
theorem pay_apply (v0 : FVec Ideal S512x2048 .f32) (v39 : FVec Ideal S2048x2048 .bf16) (p : Fin 512) (o : Fin 2048) :
    k0_pay1 (F := Ideal) v0 v39 (ix2 p o) = ∑ k : Fin 2048, fq' (fun k' => v0 (ix2 p k')) k * v39 (ix2 k o) := by
  rw [pay_eq]
  refine (MatmulRead.matmul_zero_ix2 (D := dot_S512x2048_S2048x2048_S512x2048_1_0_0_1_n_n) ⟨rfl, rfl, rfl, rfl, rfl, rfl⟩ rfl rfl none _ _ p o).trans ?_
  refine Finset.sum_congr rfl fun k _ => ?_
  rw [truncf_apply, shapeCast_self, shapeCast_self, xdq_apply]

end Cert.KernelIdeal.PayValue

end
-- ==== Proof.Bridge.lean ====
/-
  From the 16384 × 2048 layout back to tokens: the two arrangements of the computation are one function.

  The token (b, t) is row b · 4096 + t of the flattened activations, so row-wise quantities of that row are those of
  x[b, t, ·]; the weights enter transposed, so entry (k, o) of the transposed matrix is W[o, k]; a change of float format is
  the identity at the exact values; and the reciprocal form of the fake quantization is the quotient form. Hence the
  product on the flattened layout, cast back to 4 × 4096 × 2048, is the specification.
-/
import proofs.«144166_j91302414778446_2_alg».proof.Proof.Spec
import Idealize.ShloMosaic.Lib.Pipeline.Value

noncomputable section

namespace Cert.QuantBridge

open Idealize.ShloMosaic Idealize.ShloMosaic.ValueIdx Cert.QuantSpec
open scoped BigOperators

abbrev S3 : Shape := ⟨3, ![4, 4096, 2048]⟩
abbrev S2 : Shape := ⟨2, ![16384, 2048]⟩
abbrev SW : Shape := ⟨2, ![2048, 2048]⟩

/-- The row of the flattened layout that holds token (b, t). -/
def tok (b : Fin 4) (t : Fin 4096) : Fin 16384 :=
  ⟨b.val * 4096 + t.val, by have := b.isLt; have := t.isLt; omega⟩

/-- The flattened activations at (row of (b, t), k) are x[b, t, k]. -/
theorem flat_apply (x : S3.Idx → EReal) (h : S3.ShapeCasts S2) (b : Fin 4) (t : Fin 4096) (k : Fin 2048) :
    shapeCast S2 x h (ix2 (tok b t) k) = x (ix3 b t k) :=
  shapeCast_apply x h _ _ (by
    rw [Shape.rowMajor_val_three, Shape.rowMajor_val_two]
    rfl)

/-- The transposed weights at (k, o) are W[o, k]. -/
theorem transp_apply (W : SW.Idx → EReal) (h : SW.Transposes [1, 0] SW) (k o : Fin 2048) :
    transpose SW [1, 0] W h (ix2 k o) = W (ix2 o k) :=
  transpose_apply [1, 0] W h (ix2 k o) (ix2 o k) (fun b' => by
    match b' with
    | ⟨0, _⟩ => rfl
    | ⟨1, _⟩ => rfl)

/-- The product on the flattened layout, cast back to tokens, is the specification. -/
theorem bridge (x : S3.Idx → EReal) (W : SW.Idx → EReal) (h1 : S3.ShapeCasts S2) (h2 : S2.ShapeCasts S3)
    (htr : SW.Transposes [1, 0] SW) (hb : FTy.bits .bf16 < FTy.bits .f32) :
    shapeCast S3 (H (shapeCast S2 x h1) (truncf (F := Ideal) .bf16 (transpose SW [1, 0] W htr) hb)) h2 = G x W := by
  funext i
  obtain ⟨b, t, o, rfl⟩ : ∃ (b : Fin 4) (t : Fin 4096) (o : Fin 2048), i = ix3 b t o := ⟨i 0, i 1, i 2, eq_ix3 i⟩
  rw [shapeCast_apply _ h2 (ix3 b t o) (ix2 (tok b t) o) (by
    rw [Shape.rowMajor_val_three, Shape.rowMajor_val_two]
    rfl)]
  show Hat _ _ (tok b t) o = Gat x W b t o
  unfold Hat Gat
  refine Finset.sum_congr rfl fun k _ => ?_
  rw [fq'_eq]
  show fq (fun k' => shapeCast S2 x h1 (ix2 (tok b t) k')) k * transpose SW [1, 0] W htr (ix2 k o) = _
  rw [transp_apply, show (fun k' => shapeCast S2 x h1 (ix2 (tok b t) k')) = fun k' => x (ix3 b t k') from
    funext fun k' => flat_apply x h1 b t k']

end Cert.QuantBridge

end
-- ==== Proof.KernelArr.lean ====
/-
  The kernel program's result as one function of its argument arrays.

  The region runs the body once per block of 512 tokens: point t reads rows 512·t … 512·t + 511 of the flattened activations
  and the whole weight matrix, and writes the same rows of the 16384 × 2048 result. Every row lies in exactly the block of
  its quotient by 512, so the result array after the run is, entry by entry, the row-wise product on the flattened layout.
  Before the region the host flattens the activations and dequantizes, transposes and narrows the weights; after it the
  host casts the result back to 4 × 4096 × 2048.
-/
import proofs.«144166_j91302414778446_2_alg».proof.Proof.Gen.KernelIdeal.Frame
import proofs.«144166_j91302414778446_2_alg».proof.Proof.Pay
import proofs.«144166_j91302414778446_2_alg».proof.Proof.Bridge
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.ArrValue

open Cert.KernelIdeal Cert.KernelIdeal.Gen Idealize.ShloMosaic.ValueIdx Cert.QuantSpec
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- One entry of a block's result, given where the block's rows and the weight block sit in the arrays. -/
theorem block_eq (x0 : FVec Ideal S512x2048 .f32) (x1 : FVec Ideal S2048x2048 .bf16)
    (X : (⟨2, ![16384, 2048]⟩ : Shape).Idx → EReal) (Wt : (⟨2, ![2048, 2048]⟩ : Shape).Idx → EReal)
    (r : Fin 16384) (p : Fin 512) (o : Fin 2048)
    (hx : ∀ k : Fin 2048, x0 (ix2 p k) = X (ix2 r k)) (hw : ∀ k : Fin 2048, x1 (ix2 k o) = Wt (ix2 k o)) :
    k0_pay1 (F := Ideal) x0 x1 (ix2 p o) = Hat X Wt r o := by
  rw [PayValue.pay_apply]
  unfold Hat
  refine Finset.sum_congr rfl fun k _ => ?_
  rw [hw k, show (fun k' => x0 (ix2 p k')) = fun k' => X (ix2 r k') from funext hx]

/-- The printed index maps over the grid: point t takes block row t of the activations and of the result, and the one
    block of the weights. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the row-wise product of the arrays as the region finds them. -/
theorem flushed_eq (c : Dev nD) (t : Fin cfg0.N) :
    (dats m 0 c).flushed 2 t = ((cfg0.win 2).blk t).view.read (Elt Ideal) (H (V m c main_v0) (V m c main_v11)) := by
  show (cfg0.win 2).cut (grid0.coords t) ((dats m 0 c).after 2 t) = _
  rw [after0_2]
  unfold out0_2
  rw [View.canon_unit_zero hz]
  simp only [View.ld_unit_zero (S := S512x2048) hz, View.ld_unit_zero (S := S2048x2048) hz]
  obtain ⟨e0, e1, e2, e3, e4, e5⟩ := idx_facts t
  have ht : t.val < 32 := lt_of_lt_of_eq t.isLt N_0
  show (fun j : S512x2048.Idx => k0_pay1 (F := Ideal) (iblk m c 0 t) (iblk m c 1 t) j)
    = fun j : S512x2048.Idx => H (V m c main_v0) (V m c main_v11) (((cfg0.win 2).blk t).view.emb j)
  funext j
  obtain ⟨p, o, rfl⟩ : ∃ (p : Fin 512) (o : Fin 2048), j = ix2 p o := ⟨j 0, j 1, eq_ix2 j⟩
  have hp : p.val < 512 := p.isLt
  have h20 : (((cfg0.win 2).blk t).view.emb (ix2 p o)) 0 = (⟨t.val * 512 + p.val, by omega⟩ : Fin 16384) :=
    Fin.ext (by show win0_2.index t (0 : Fin 2) * 512 + 1 * p.val = t.val * 512 + p.val; rw [e4]; omega)
  have h21 : (((cfg0.win 2).blk t).view.emb (ix2 p o)) 1 = o :=
    Fin.ext (by show win0_2.index t (1 : Fin 2) * 2048 + 1 * o.val = o.val; rw [e5]; omega)
  show _ = Hat (V m c main_v0) (V m c main_v11) ((((cfg0.win 2).blk t).view.emb (ix2 p o)) 0) ((((cfg0.win 2).blk t).view.emb (ix2 p o)) 1)
  rw [h20, h21]
  refine block_eq (iblk m c 0 t) (iblk m c 1 t) (V m c main_v0) (V m c main_v11) ⟨t.val * 512 + p.val, by omega⟩ p o
    (fun k => ?_) (fun k => ?_)
  · show V m c main_v0 (((cfg0.win 0).blk t).view.emb (ix2 p k)) = V m c main_v0 (ix2 (⟨t.val * 512 + p.val, by omega⟩ : Fin 16384) k)
    refine congrArg _ (funext fun a => Fin.ext ?_)
    match a with
    | ⟨0, _⟩ => show win0_0.index t (0 : Fin 2) * 512 + 1 * p.val = t.val * 512 + p.val; rw [e0]; omega
    | ⟨1, _⟩ => show win0_0.index t (1 : Fin 2) * 2048 + 1 * k.val = k.val; rw [e1]; omega
  · show V m c main_v11 (((cfg0.win 1).blk t).view.emb (ix2 k o)) = V m c main_v11 (ix2 k o)
    refine congrArg _ (funext fun a => Fin.ext ?_)
    match a with
    | ⟨0, _⟩ => show win0_1.index t (0 : Fin 2) * 2048 + 1 * k.val = k.val; rw [e2]; omega
    | ⟨1, _⟩ => show win0_1.index t (1 : Fin 2) * 2048 + 1 * o.val = o.val; rw [e3]; omega

/-- An index of the result array is in point t's block iff each coordinate is in the block's range on its axis. -/
theorem mem_blk (t : Fin cfg0.N) (i : S16384x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v12).slice (win0_2.rect t)).set ↔ _
  rw [View.set_slice_whole, Rect.mem_set_unit]
  exact Iff.rfl

/-- Every row of the result lies in the block of its quotient by 512. -/
theorem cover (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  have hq : (i 0).val / 512 < cfg0.N := by rw [show cfg0.N = 32 from N_0]; omega
  obtain ⟨e0, e1, e2, e3, e4, e5⟩ := idx_facts ⟨(i 0).val / 512, hq⟩
  refine ⟨⟨(i 0).val / 512, hq⟩, flush0_2 _, ?_⟩
  rw [mem_blk]
  intro a
  match a with
  | ⟨0, _⟩ =>
    show win0_2.index ⟨(i 0).val / 512, hq⟩ (0 : Fin 2) * 512 ≤ (i 0).val
      ∧ (i 0).val < win0_2.index ⟨(i 0).val / 512, hq⟩ (0 : Fin 2) * 512 + 512
    rw [e4]
    show (i 0).val / 512 * 512 ≤ (i 0).val ∧ (i 0).val < (i 0).val / 512 * 512 + 512
    omega
  | ⟨1, _⟩ =>
    show win0_2.index ⟨(i 0).val / 512, hq⟩ (1 : Fin 2) * 2048 ≤ (i 1).val
      ∧ (i 1).val < win0_2.index ⟨(i 0).val / 512, hq⟩ (1 : Fin 2) * 2048 + 2048
    rw [e5]
    omega

/-- The result array after the run is the row-wise product of the arrays as the region finds them. -/
theorem final (c : Dev nD) : (dats m 0 c).arrAt 2 cfg0.N = H (V m c main_v0) (V m c main_v11) :=
  (dats m 0 c).arrAt_eq_of_cover 2 (H (V m c main_v0) (V m c main_v11)) (fun t _ => flushed_eq m c t) cover

/-- The dequantized weights, as the host computes them from the arguments: (w_q - zero) · scale per group of 32 inputs. -/
def Wk (c : Dev nD) : S2048x2048.Idx → EReal :=
  shapeCast S2048x2048
    (mulf
      (subf (shapeCast S2048x64x32 (sitofp (F := Ideal) .f32 (m ((c : Thread nD τ).loc main_arg1))) shapeCasts_S2048x2048_S2048x64x32)
        (broadcastInDim S2048x64x32 ![0, 1, 2] bcast_S2048x64x1_S2048x64x32_0_1_2
          (broadcastInDim S2048x64x1 ![0, 1] bcast_S2048x64_S2048x64x1_0_1 (m ((c : Thread nD τ).loc main_arg3)))))
      (broadcastInDim S2048x64x32 ![0, 1, 2] bcast_S2048x64x1_S2048x64x32_0_1_2
        (broadcastInDim S2048x64x1 ![0, 1] bcast_S2048x64_S2048x64x1_0_1 (m ((c : Thread nD τ).loc main_arg2)))))
    shapeCasts_S2048x64x32_S2048x2048

/-- The region finds the activations flattened. -/
theorem V_v0 (c : Dev nD) : (V m c main_v0 : S16384x2048.Idx → EReal)
    = shapeCast S16384x2048 (m ((c : Thread nD τ).loc main_arg0)) shapeCasts_S4x4096x2048_S16384x2048 := by
  show StableHlo.after hostOps0 (fun b => m (c, b)) (Proc.devRef .tc main_v0) = _
  after_results
  rfl

/-- The region finds the dequantized weights transposed and narrowed. -/
theorem V_v11 (c : Dev nD) : (V m c main_v11 : S2048x2048.Idx → EReal)
    = truncf (F := Ideal) .bf16 (transpose S2048x2048 [1, 0] (Wk m c) transposes_S2048x2048_S2048x2048_1_0) bitsLt_bf16_f32 := by
  show StableHlo.after hostOps0 (fun b => m (c, b)) (Proc.devRef .tc main_v11) = _
  after_results
  rfl

/-- The host's last line casts the region's result back to tokens. -/
theorem tail_eq (c : Dev nD) :
    Pipeline.afterTail₀ cfgs (dats m) 0 (V0 m) [hostOps1] c main_v13
      = shapeCast S4x4096x2048 ((dats m 0 c).arrAt 2 cfg0.N) shapeCasts_S16384x2048_S4x4096x2048 := by
  unfold Pipeline.afterTail₀
  show StableHlo.after hostOps1 _ (Proc.devRef .tc main_v13) = _
  after_results
  exact congrArg (fun a => shapeCast S4x4096x2048 a shapeCasts_S16384x2048_S4x4096x2048)
    (Pipeline.withArrays_arr spec0 launch0.win.arr_inj c _ _ 2)

/-- The program's result is the specification of the activations and the host's dequantized weights. -/
theorem result_eq (c : Dev nD) :
    Pipeline.afterTail₀ cfgs (dats m) 0 (V0 m) [hostOps1] c main_v13
      = G (m ((c : Thread nD τ).loc main_arg0)) (Wk m c) := by
  rw [tail_eq, final, V_v0, V_v11]
  exact QuantBridge.bridge _ _ _ _ _ _

/-- The run, read: the result at the specification, the arguments unchanged. -/
theorem run : θ_run defs (onTc (τ := τ) (main (F := Ideal))) ⟨m, fun _ => 0, ρ⟩ fun r => ∀ c : Dev nD,
      r.2.mem ((c : Thread nD τ).loc main_v13) = G (m ((c : Thread nD τ).loc main_arg0)) (Wk m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.ArrValue

end
-- ==== Proof.RefG.lean ====
/-
  The reference program's result, stage by stage, is the row-wise specification.

  Per token (b, t) the reference takes the minimum and maximum of x[b, t, ·], clamps them against zero, forms the step, the
  zero point and the fake-quantized entries by division by the step, all on 4 × 4096 × 1 columns repeated over the 2048
  lanes; its last operation contracts the lanes against the dequantized weights W[o, ·]. Read at an index each stage is
  the corresponding quantity of the specification on the row x[b, t, ·].
-/
import proofs.«144166_j91302414778446_2_alg».proof.Proof.Gen.ReferenceIdeal.Read
import proofs.«144166_j91302414778446_2_alg».proof.Proof.LibRowFold
import proofs.«144166_j91302414778446_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.QuantSpec
open scoped BigOperators

variable (x0 : (⟨S4x4096x2048, .f32⟩ : BufTy).Contents (Elt Ideal))

/-- A column index's token. -/
theorem col_tok (b : Fin 4) (t : Fin 4096) : idx_main_v1 (ix3 b t (0 : Fin 1)) = ix2 b t :=
  funext fun a => match a with | ⟨0, _⟩ => rfl | ⟨1, _⟩ => rfl

/-- An entry's column index. -/
theorem ent_col (b : Fin 4) (t : Fin 4096) (k : Fin 2048) : idx_main_v18 (ix3 b t k) = ix3 b t (0 : Fin 1) :=
  funext fun a => match a with | ⟨0, _⟩ => rfl | ⟨1, _⟩ => rfl | ⟨2, _⟩ => rfl

theorem lo_at (b : Fin 4) (t : Fin 4096) :
    val_main_v3 (F := Ideal) x0 (ix3 b t (0 : Fin 1)) = lo (fun k => x0 (ix3 b t k)) := by
  rw [val_main_v3_apply, val_main_v1_apply, col_tok]
  unfold val_main_v0
  rw [LibRowFold.hostMin3_apply x0 _ _ (by decide) h_S_ b t]
  rfl

theorem hi_at (b : Fin 4) (t : Fin 4096) :
    val_main_v7 (F := Ideal) x0 (ix3 b t (0 : Fin 1)) = hi (fun k => x0 (ix3 b t k)) := by
  rw [val_main_v7_apply, val_main_v5_apply, show idx_main_v5 (ix3 b t (0 : Fin 1)) = ix2 b t from col_tok b t]
  unfold val_main_v4
  rw [LibRowFold.hostMax3_apply x0 _ _ (by decide) h_S_ b t]
  rfl

theorem step_at (b : Fin 4) (t : Fin 4096) :
    val_main_v12 (F := Ideal) x0 (ix3 b t (0 : Fin 1)) = step (fun k => x0 (ix3 b t k)) := by
  rw [val_main_v12_apply, val_main_v10_apply, val_main_v8_apply, hi_at, lo_at]
  rfl

theorem zp_at (b : Fin 4) (t : Fin 4096) :
    val_main_v17 (F := Ideal) x0 (ix3 b t (0 : Fin 1)) = zp (fun k => x0 (ix3 b t k)) := by
  rw [val_main_v17_apply, val_main_call1_v2_apply, val_main_v16_apply, val_main_v14_apply, val_main_v13_apply, lo_at, step_at]
  rfl

theorem fq_at (b : Fin 4) (t : Fin 4096) (k : Fin 2048) :
    val_main_v27 (F := Ideal) x0 (ix3 b t k) = fq (fun k' => x0 (ix3 b t k')) k := by
  rw [val_main_v27_apply, val_main_v25_apply, val_main_v23_apply, val_main_call3_v2_apply, val_main_v22_apply,
    val_main_v20_apply, val_main_v19_apply, val_main_v18_apply, val_main_v21_apply, val_main_v24_apply, val_main_v26_apply,
    show idx_main_v21 (ix3 b t k) = ix3 b t (0 : Fin 1) from ent_col b t k,
    show idx_main_v24 (ix3 b t k) = ix3 b t (0 : Fin 1) from ent_col b t k,
    show idx_main_v26 (ix3 b t k) = ix3 b t (0 : Fin 1) from ent_col b t k,
    ent_col, step_at, zp_at]
  rfl

/-- The reference's result is the specification of the tokens and its own dequantized weights. -/
theorem ref_eq (x1 : (⟨S2048x2048, .i32⟩ : BufTy).Contents (Elt Ideal)) (x2 x3 : (⟨S2048x64, .f32⟩ : BufTy).Contents (Elt Ideal)) :
    val_main_v37 (F := Ideal) x0 x1 x2 x3 = G x0 (val_main_v36 (F := Ideal) x1 x2 x3) := by
  funext i
  obtain ⟨b, t, o, rfl⟩ : ∃ (b : Fin 4) (t : Fin 4096) (o : Fin 2048), i = ix3 b t o := ⟨i 0, i 1, i 2, eq_ix3 i⟩
  rw [val_main_v37_apply]
  show _ = Gat x0 _ b t o
  unfold Gat
  refine Finset.sum_congr rfl fun k _ => ?_
  have e1 : lidx_main_v37 (ix3 b t o) k = ix3 b t k :=
    funext fun a => match a with | ⟨0, _⟩ => rfl | ⟨1, _⟩ => rfl | ⟨2, _⟩ => rfl
  have e2 : ridx_main_v37 (ix3 b t o) k = ix2 o k :=
    funext fun a => match a with | ⟨0, _⟩ => rfl | ⟨1, _⟩ => rfl
  rw [e1, e2, fq_at]

end Cert.ReferenceIdeal.RefValue

end
-- ==== Proof.lean ====
/-
  Per-token 8-bit fake quantization of the activations followed by a product with group-dequantized 4-bit weights:
  the kernel program against its reference, at the exact values.

  Both programs compute, for token (b, t) and output o, the sum over the 2048 inputs k of fq(x[b, t, ·]) k · W[o, k], where
  W[o, k] = (w_q[o, k] - zero[o, k / 32]) · scale[o, k / 32] and fq is the row-wise fake quantization: the row's range
  clamped against zero, its step max(range / 255, 2⁻²³), the zero point, and the entries rounded, clamped and scaled back.
  The reference divides by the step; the kernel multiplies by the reciprocal 1 / step. The step is at least 2⁻²³, so it is
  not zero, and on the extended reals x · (1 / s) and x / s are then both x · s⁻¹. The kernel works on the activations
  flattened to 16384 rows in blocks of 512 rows against the transposed weights; a row of the flattened array is a token's
  row, the transposed weights at (k, o) are W[o, k], a change of float format is the identity, and a sum does not depend
  on how the rows are tiled. Nothing in the argument needs the inputs to be finite.

  The frames of the two kernel programs are the generated ones; the reference's frame is its generated run with the result
  dropped. The idealization rewrote nothing, so there is nothing to preserve.
-/
import proofs.«144166_j91302414778446_2_alg».proof.Defs
import proofs.«144166_j91302414778446_2_alg».proof.Proof.Gen.Kernel
import proofs.«144166_j91302414778446_2_alg».proof.Proof.Gen.Kernel.Skeleton
import proofs.«144166_j91302414778446_2_alg».proof.Proof.Gen.Kernel.Launch
import proofs.«144166_j91302414778446_2_alg».proof.Proof.Gen.Kernel.Points
import proofs.«144166_j91302414778446_2_alg».proof.Proof.Gen.Kernel.Frame
import proofs.«144166_j91302414778446_2_alg».proof.Proof.Gen.KernelIdeal
import proofs.«144166_j91302414778446_2_alg».proof.Proof.Gen.KernelIdeal.Skeleton
import proofs.«144166_j91302414778446_2_alg».proof.Proof.Gen.KernelIdeal.Launch
import proofs.«144166_j91302414778446_2_alg».proof.Proof.Gen.KernelIdeal.Points
import proofs.«144166_j91302414778446_2_alg».proof.Proof.Gen.KernelIdeal.Frame
import proofs.«144166_j91302414778446_2_alg».proof.Proof.Gen.ReferenceIdeal
import proofs.«144166_j91302414778446_2_alg».proof.Proof.Gen.Pre_finite_inputs
import proofs.«144166_j91302414778446_2_alg».proof.Proof.Gen.ReferenceIdeal.Run
import proofs.«144166_j91302414778446_2_alg».proof.Proof.Gen.ReferenceIdeal.Read
import proofs.«144166_j91302414778446_2_alg».proof.Proof.KernelArr
import proofs.«144166_j91302414778446_2_alg».proof.Proof.RefG
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the specification of the activations and the dequantized weights, which the two hosts compute
    by the same operations of the same arguments. -/
theorem algebraic : Cert.algebraic_KernelIdeal_ReferenceIdeal := by
  intro m ρ m' ρ' _ hagree
  refine ⟨fun c => Cert.QuantSpec.G (m ((c.tc : Thread Cert.KernelIdeal.nD Cert.KernelIdeal.τ).loc Cert.KernelIdeal.main_arg0))
    (Cert.KernelIdeal.ArrValue.Wk m c), Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.ref_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
